-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096x4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1x512 : Shape := ⟨2, ![1, 512]⟩
abbrev S1024x512 : Shape := ⟨2, ![1024, 512]⟩
abbrev S1024x256 : Shape := ⟨2, ![1024, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1024x4096, .f32⟩
  | .local _ .vmem, ⟨0, _⟩ => ⟨S1024x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  inb_S256x4096_S256x4096_0_0 : ∀ a, (![0, 0] : Fin 2 → Nat) a + S256x4096.size a ≤ S256x4096.size a
  h_S256x4096 : 0 < S256x4096.numel
  inb_S1x512_S1x256_0_0 : ∀ a, (![0, 0] : Fin 2 → Nat) a + S1x256.size a ≤ S1x512.size a
  h_S1x256 : 0 < S1x256.numel
  shapeCasts_S1x256_S1x256 : S1x256.ShapeCasts S1x256
  broadcasts_S1x256_S1024x256 : S1x256.Broadcasts S1024x256
  inb_S1024x512_S1024x256_0_0 : ∀ a, (![0, 0] : Fin 2 → Nat) a + S1024x256.size a ≤ S1024x512.size a
  h_S1024x256 : 0 < S1024x256.numel
  inb_S1x512_S1x256_0_256 : ∀ a, (![0, 256] : Fin 2 → Nat) a + S1x256.size a ≤ S1x512.size a
  inb_S1024x512_S1024x256_0_256 : ∀ a, (![0, 256] : Fin 2 → Nat) a + S1024x256.size a ≤ S1024x512.size a
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x4096.size a
  hwx0_4 : ∀ i : grid0.Coords, EltTy.bits .f32 = 32 ∨ (Rect.block (s := S1024x4096) S1024x512.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1024x4096, .f32⟩
  | .hbm, ⟨5, _⟩ => ⟨S1x4096, .f32⟩
  | .hbm, ⟨6, _⟩ => ⟨S1024x4096, .f32⟩
  | .hbm, ⟨7, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.LibSharedFrame.lean ====
/-
  The frame run of a one-region TensorCore program whose INPUT windows may read one array several times.

  When two windows of a pallas_call are handed the same array, the array's buffer cannot be held at the full share by
  each of them.  The launch then deals the buffers behind the windows' arrays once each (`Pipeline.arrBufs`), and
  the certificate says how those become the proof data's `arrays` at entry: an array read by several windows is
  split among them along the share (`hsplit`).  Everything else is as in the plain frame run: the body draws on the
  staging buffers only, the region invariant is the scoped rest, every unscoped buffer that is no window's array
  bypasses the region and is read back unchanged.  The conclusion is the library's `Pipeline.FramePost`: every
  window's array at `Dat.arrAt w N`, every bypassing buffer at its region-entry contents.
-/
import Idealize.ShloMosaic.Lib.Pipeline.Frame

noncomputable section

namespace Idealize.ShloMosaic.Pipeline.Shared

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN for windows that may share arrays.  The proof data's invariant is the scoped rest at every point
    (`hΦ`: a body that keeps nothing between points outside its staging buffers and draws no random bits); `hsplit`
    deals the arrays' buffers, each whole at the region-entry contents `V`, to the windows at the shares the proof
    data names.  Concludes `FramePost`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.Shared

end
-- ==== Proof.KBody.lean ====
/-
  The frame of `Kernel`: the launch, the body and the run, for every float instance `F`.

  The pallas_call walks the 8 column blocks of the 1024 × 4096 result.  At block `j` its body holds all of `x`, two
  consecutive 256-row bands of `weight` (rows 512 j … 512 j + 255 and 512 j + 256 … 512 j + 511, one window each, both
  reading the SAME array), the 512 entries of the bias under the block, and the 1024 × 512 block of the result, which
  it fills by two stores: columns 0 … 255 with `x · bandᵀ + bias` of the first band, columns 256 … 511 with that of the
  second.  The two stores tile the block, so what the block holds afterwards is their canon, a function of the four
  input blocks alone.

  Because `weight` is read through two windows, its buffer is dealt to them in halves of the full share at the region's
  entry (`arrays_entry`); the run is then the shared-array frame run.  The body itself touches only staging buffers.
-/
import proofs.«158400_g38525856645424_cont_8to1_b_480_24_alg».proof.Proof.Gen.Kernel.Launch
import proofs.«158400_g38525856645424_cont_8to1_b_480_24_alg».proof.Proof.Gen.Kernel.Skeleton
import proofs.«158400_g38525856645424_cont_8to1_b_480_24_alg».proof.Proof.Gen.Kernel.Points
import proofs.«158400_g38525856645424_cont_8to1_b_480_24_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation, the reshape of
    the bias to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes the row buffer only: the three argument arrays are found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not
    (`x` is fetched once; the bands and the bias row at every point): unfetched, the block index has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S1024x4096 := Rect.unit (s := S1024x4096) ![0, 0] S1024x4096.size inb_S1024x4096_S1024x4096_0_0
abbrev rW : Rect S256x4096 := Rect.unit (s := S256x4096) ![0, 0] S256x4096.size inb_S256x4096_S256x4096_0_0
abbrev rB0 : Rect S1x512 := Rect.unit (s := S1x512) ![0, 0] S1x256.size inb_S1x512_S1x256_0_0
abbrev rB1 : Rect S1x512 := Rect.unit (s := S1x512) ![0, 256] S1x256.size inb_S1x512_S1x256_0_256
abbrev rO0 : Rect S1024x512 := Rect.unit (s := S1024x512) ![0, 0] S1024x256.size inb_S1024x512_S1024x256_0_0
abbrev rO1 : Rect S1024x512 := Rect.unit (s := S1024x512) ![0, 256] S1024x256.size inb_S1024x512_S1024x256_0_256

/-! ## What the body leaves in the result block's buffer -/

/-- The result block after the body, from the four input blocks: its two stores as pieces, the later one first. -/
def outBlock (x0 : Vec F S1024x4096 .f32) (x1 x2 : Vec F S256x4096 .f32) (x3 : Vec F S1x512 .f32) : Vec F S1024x512 .f32 :=
  View.canon [⟨rO1, k0_pay2 (View.ld x0 rX) (View.ld x2 rW) (View.ld x3 rB1)⟩,
    ⟨rO0, k0_pay1 (View.ld x0 rX) (View.ld x1 rW) (View.ld x3 rB0)⟩]

/-- The two half-blocks tile the block. -/
theorem cover_out (p0 p1 : Vec F S1024x256 .f32) (y : S1024x512.Idx) :
    ∃ pc ∈ ([⟨rO1, p0⟩, ⟨rO0, p1⟩] : List (View.Piece (Elt F) S1024x512 .f32)), y ∈ pc.1.set :=
  View.cover_of_tiled [⟨rO1, p0⟩, ⟨rO0, p1⟩] S1024x256.size (by rfl) y

/-! ## The body's triple -/

set_option maxHeartbeats 1000000 in
/-- The body on whole staging memrefs, the inputs' at contents reading `x0 … x3` and the result's at anything, runs to
    the continuation with the inputs' as they were and the result's at `outBlock` of them. -/
theorem sound_kernel (c : Dev nD) (E : Set ℕ) (i : grid0.Coords)
    (arg1 : Memref sig .tc .vmem S1024x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S1x512 .f32) (harg4 : arg4.IsWhole)
    (arg5 : Memref sig .tc .vmem S1024x512 .f32) (harg5 : arg5.IsWhole)
    (x0 : Vec F S1024x4096 .f32) (x1 x2 : Vec F S256x4096 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__matmul_body i arg1 harg1 arg2 harg2 arg3 harg3 arg4 harg4 arg5 harg5) K := by
  simp only [cc0__matmul_body_eq_skeleton]; unfold cc0__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _ _)

end Cert.Kernel.Hand

end
-- ==== Proof.KRun.lean ====
/-
  The proof data, the run and the frame of `Kernel`, for every float instance `F`.

  The proof data names what each window's staging buffer holds after the body at grid point `t`: an input window its
  own block (the body only reads it), the result window `outBlock` of the four input blocks.  The two windows on
  `weight` hold its buffer at the left and the right half of the full share; every other input at the full share.
  At the region's entry the buffers behind the windows' arrays — `x`, `weight`, the bias row, the result, each once —
  become the five windows' arrays by splitting `weight`'s points-to along the share.  The frame then follows from the
  shared-array frame run: `x` and `weight` are input arrays, which no write-back touches; the bias is no window's
  array (its reshaped copy is) and bypasses the region.
-/
import proofs.«158400_g38525856645424_cont_8to1_b_480_24_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The share each input window holds its array at: the two windows on `weight` a half each. -/
def shareOf : Fin cfg0.W → PosShare TreeShare
  | ⟨1, _⟩ => fullShare.left
  | ⟨2, _⟩ => fullShare.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at the region's entry -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The four buffers behind the windows' arrays, each whole at the full share, are the five windows' arrays:
    `weight`'s points-to split into its two halves, one for each band's window. -/
theorem arrays_entry (c : Dev nD) :
    (Pipeline.arrBufs spec0 c (V m c) : sProp 𝕄) ⊢ (dats m 0 c).arrays ((dats m 0 c).arrAt · 0) := by
  unfold Pipeline.arrBufs Dat.arrays
  have e : (bigSep (Finset.univ.image (Pipeline.arrRef spec0)) (fun b => ((c.tc : Thread nD τ).loc b) ↦{fullShare} V m c b) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0) ∗ (((c.tc : Thread nD τ).loc main_v1) ↦{fullShare} V m c main_v1)) :=
    bigSep_eq_bigSepL_of_eq [main_arg0, main_arg1, main_v0, main_v1] (by decide) (by decide) _
  rw [e, bigSep_W0]
  rw [(arr_whole0 0).set_eq_univ, (arr_whole0 1).set_eq_univ, (arr_whole0 3).set_eq_univ, (arr_whole0 4).set_eq_univ,
    share0, share1, share2, share3, share4]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

/-! ## The run and the frame -/

set_option backward.isDefEq.respectTransparency.types false in
/-- Every weakly fair execution of @main terminates, and every final state has each window's array at what the
    library computes from the proof data and every other unscoped buffer as the region found it. -/
theorem run_main : θ_run defs (onTc (τ := τ) (main (F := F))) (s₀ m ρ) (Pipeline.FramePost cfgs (dats m) 0 (V m)) :=
  Pipeline.Shared.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_entry m) (hΦ := fun _ _ => rfl)

/-- info: 'Cert.Kernel.Hand.run_main' depends on axioms: [propext, Classical.choice, Quot.sound] -/
#guard_msgs in #print axioms run_main

/-- The bias array is unscoped and no window's array: it bypasses the region. -/
theorem arg2_bypasses : main_arg2 ∈ Pipeline.restRefs sig spec0 :=
  Pipeline.mem_restRefs_of main_arg2 rfl (by decide)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 arg2_bypasses).trans (V_main_arg2 m c)⟩) (run_main m ρ)

end Cert.Kernel.Hand

end
-- ==== Proof.KIBody.lean ====
/-
  The frame of `KernelIdeal`: the launch, the body and the run, for every float instance `F`.

  The pallas_call walks the 8 column blocks of the 1024 × 4096 result.  At block `j` its body holds all of `x`, two
  consecutive 256-row bands of `weight` (rows 512 j … 512 j + 255 and 512 j + 256 … 512 j + 511, one window each, both
  reading the SAME array), the 512 entries of the bias under the block, and the 1024 × 512 block of the result, which
  it fills by two stores: columns 0 … 255 with `x · bandᵀ + bias` of the first band, columns 256 … 511 with that of the
  second.  The two stores tile the block, so what the block holds afterwards is their canon, a function of the four
  input blocks alone.

  Because `weight` is read through two windows, its buffer is dealt to them in halves of the full share at the region's
  entry (`arrays_entry`); the run is then the shared-array frame run.  The body itself touches only staging buffers.
-/
import proofs.«158400_g38525856645424_cont_8to1_b_480_24_alg».proof.Proof.Gen.KernelIdeal.Launch
import proofs.«158400_g38525856645424_cont_8to1_b_480_24_alg».proof.Proof.Gen.KernelIdeal.Skeleton
import proofs.«158400_g38525856645424_cont_8to1_b_480_24_alg».proof.Proof.Gen.KernelIdeal.Points
import proofs.«158400_g38525856645424_cont_8to1_b_480_24_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation, the reshape of
    the bias to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes the row buffer only: the three argument arrays are found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not
    (`x` is fetched once; the bands and the bias row at every point): unfetched, the block index has not moved. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S1024x4096 := Rect.unit (s := S1024x4096) ![0, 0] S1024x4096.size inb_S1024x4096_S1024x4096_0_0
abbrev rW : Rect S256x4096 := Rect.unit (s := S256x4096) ![0, 0] S256x4096.size inb_S256x4096_S256x4096_0_0
abbrev rB0 : Rect S1x512 := Rect.unit (s := S1x512) ![0, 0] S1x256.size inb_S1x512_S1x256_0_0
abbrev rB1 : Rect S1x512 := Rect.unit (s := S1x512) ![0, 256] S1x256.size inb_S1x512_S1x256_0_256
abbrev rO0 : Rect S1024x512 := Rect.unit (s := S1024x512) ![0, 0] S1024x256.size inb_S1024x512_S1024x256_0_0
abbrev rO1 : Rect S1024x512 := Rect.unit (s := S1024x512) ![0, 256] S1024x256.size inb_S1024x512_S1024x256_0_256

/-! ## What the body leaves in the result block's buffer -/

/-- The result block after the body, from the four input blocks: its two stores as pieces, the later one first. -/
def outBlock (x0 : Vec F S1024x4096 .f32) (x1 x2 : Vec F S256x4096 .f32) (x3 : Vec F S1x512 .f32) : Vec F S1024x512 .f32 :=
  View.canon [⟨rO1, k0_pay2 (View.ld x0 rX) (View.ld x2 rW) (View.ld x3 rB1)⟩,
    ⟨rO0, k0_pay1 (View.ld x0 rX) (View.ld x1 rW) (View.ld x3 rB0)⟩]

/-- The two half-blocks tile the block. -/
theorem cover_out (p0 p1 : Vec F S1024x256 .f32) (y : S1024x512.Idx) :
    ∃ pc ∈ ([⟨rO1, p0⟩, ⟨rO0, p1⟩] : List (View.Piece (Elt F) S1024x512 .f32)), y ∈ pc.1.set :=
  View.cover_of_tiled [⟨rO1, p0⟩, ⟨rO0, p1⟩] S1024x256.size (by rfl) y

/-! ## The body's triple -/

set_option maxHeartbeats 1000000 in
/-- The body on whole staging memrefs, the inputs' at contents reading `x0 … x3` and the result's at anything, runs to
    the continuation with the inputs' as they were and the result's at `outBlock` of them. -/
theorem sound_kernel (c : Dev nD) (E : Set ℕ) (i : grid0.Coords)
    (arg1 : Memref sig .tc .vmem S1024x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S1x512 .f32) (harg4 : arg4.IsWhole)
    (arg5 : Memref sig .tc .vmem S1024x512 .f32) (harg5 : arg5.IsWhole)
    (x0 : Vec F S1024x4096 .f32) (x1 x2 : Vec F S256x4096 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__matmul_body i arg1 harg1 arg2 harg2 arg3 harg3 arg4 harg4 arg5 harg5) K := by
  simp only [cc0__matmul_body_eq_skeleton]; unfold cc0__matmul_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _ _)

end Cert.KernelIdeal.Hand

end
-- ==== Proof.KIRun.lean ====
/-
  The proof data, the run and the frame of `KernelIdeal`, for every float instance `F`.

  The proof data names what each window's staging buffer holds after the body at grid point `t`: an input window its
  own block (the body only reads it), the result window `outBlock` of the four input blocks.  The two windows on
  `weight` hold its buffer at the left and the right half of the full share; every other input at the full share.
  At the region's entry the buffers behind the windows' arrays — `x`, `weight`, the bias row, the result, each once —
  become the five windows' arrays by splitting `weight`'s points-to along the share.  The frame then follows from the
  shared-array frame run: `x` and `weight` are input arrays, which no write-back touches; the bias is no window's
  array (its reshaped copy is) and bypasses the region.
-/
import proofs.«158400_g38525856645424_cont_8to1_b_480_24_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The share each input window holds its array at: the two windows on `weight` a half each. -/
def shareOf : Fin cfg0.W → PosShare TreeShare
  | ⟨1, _⟩ => fullShare.left
  | ⟨2, _⟩ => fullShare.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (iblk m c 0 t) (iblk m c 1 t) (iblk m c 2 t) (iblk m c 3 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at the region's entry -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The four buffers behind the windows' arrays, each whole at the full share, are the five windows' arrays:
    `weight`'s points-to split into its two halves, one for each band's window. -/
theorem arrays_entry (c : Dev nD) :
    (Pipeline.arrBufs spec0 c (V m c) : sProp 𝕄) ⊢ (dats m 0 c).arrays ((dats m 0 c).arrAt · 0) := by
  unfold Pipeline.arrBufs Dat.arrays
  have e : (bigSep (Finset.univ.image (Pipeline.arrRef spec0)) (fun b => ((c.tc : Thread nD τ).loc b) ↦{fullShare} V m c b) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0) ∗ (((c.tc : Thread nD τ).loc main_v1) ↦{fullShare} V m c main_v1)) :=
    bigSep_eq_bigSepL_of_eq [main_arg0, main_arg1, main_v0, main_v1] (by decide) (by decide) _
  rw [e, bigSep_W0]
  rw [(arr_whole0 0).set_eq_univ, (arr_whole0 1).set_eq_univ, (arr_whole0 3).set_eq_univ, (arr_whole0 4).set_eq_univ,
    share0, share1, share2, share3, share4]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

/-! ## The run and the frame -/

set_option backward.isDefEq.respectTransparency.types false in
/-- Every weakly fair execution of @main terminates, and every final state has each window's array at what the
    library computes from the proof data and every other unscoped buffer as the region found it. -/
theorem run_main : θ_run defs (onTc (τ := τ) (main (F := F))) (s₀ m ρ) (Pipeline.FramePost cfgs (dats m) 0 (V m)) :=
  Pipeline.Shared.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_entry m) (hΦ := fun _ _ => rfl)

/-- info: 'Cert.KernelIdeal.Hand.run_main' depends on axioms: [propext, Classical.choice, Quot.sound] -/
#guard_msgs in #print axioms run_main

/-- The bias array is unscoped and no window's array: it bypasses the region. -/
theorem arg2_bypasses : main_arg2 ∈ Pipeline.restRefs sig spec0 :=
  Pipeline.mem_restRefs_of main_arg2 rfl (by decide)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 arg2_bypasses).trans (V_main_arg2 m c)⟩) (run_main m ρ)

end Cert.KernelIdeal.Hand

end
-- ==== Proof.KIPayload.lean ====
/-
  The kernel's arithmetic at an index, at the ideal instance.

  One store's payload is, at row `p` and column `q` of a 1024 × 256 half-block, the sum over the 4096 features of
  `x p k · band q k` — the matrix unit's product into a zero accumulator, which over the extended reals is that plain
  sum — plus the bias row's entry `q` (the row broadcast down the 1024 rows).  The result block, two such half-blocks
  side by side, therefore reads at column `q` the first band's payload when `q < 256` and the second's at `q - 256`
  otherwise.
-/
import proofs.«158400_g38525856645424_cont_8to1_b_480_24_alg».proof.Proof.KIBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.ValueIdx

/-- The body's contraction: `x`'s axis 1 against a band's axis 1, rows of `x` by rows of the band. -/
abbrev dotK : DotDims S1024x4096 S256x4096 S1024x256 := dot_S1024x4096_S256x4096_S1024x256_1_1_0_0_n_n

theorem lhs0 (i : S1024x256.Idx) (q : dotK.contr.Idx) : (dotK.lhsIdx i q 0).val = (i 0).val := by
  unfold DotDims.lhsIdx
  rw [dif_neg (show ¬(0 : Fin S1024x4096.rank) ∈ dotK.lhsBatch by decide), dif_pos (show (0 : Fin S1024x4096.rank) ∈ dotK.lhsNonContracting by decide)]
  rfl
theorem lhs1 (i : S1024x256.Idx) (q : dotK.contr.Idx) : (dotK.lhsIdx i q 1).val = (q ⟨0, by decide⟩).val :=
  dotK.lhsIdx_val_of_single rfl i q
theorem rhs0 (i : S1024x256.Idx) (q : dotK.contr.Idx) : (dotK.rhsIdx i q 0).val = (i 1).val := by
  unfold DotDims.rhsIdx
  rw [dif_neg (show ¬(0 : Fin S256x4096.rank) ∈ dotK.rhsBatch by decide), dif_pos (show (0 : Fin S256x4096.rank) ∈ dotK.rhsNonContracting by decide)]
  rfl
theorem rhs1 (i : S1024x256.Idx) (q : dotK.contr.Idx) : (dotK.rhsIdx i q 1).val = (q ⟨0, by decide⟩).val :=
  dotK.rhsIdx_val_of_single rfl i q

/-- The matrix unit's product of `x` with a band, into zeros, at `(p, q)`: the sum over the features. -/
theorem band_apply (v0 : FVec Ideal S1024x4096 .f32) (v1 : FVec Ideal S256x4096 .f32) (p : Fin 1024) (q : Fin 256) :
    matmul dotK none v0 v1 (constant (F := Ideal) S1024x256 .f32 0x00000000#32) (ix2 p q)
      = ∑ k : Fin 4096, v0 (ix2 p k) * v1 (ix2 q k) := by
  simp only [matmul]
  rw [Ideal.matmul_constant_zero_apply, ← Equiv.sum_comp (contrEquiv1 dotK 4096 rfl rfl).symm]
  refine Finset.sum_congr rfl fun k _ => ?_
  have hk := contrEquiv1_symm_val dotK 4096 rfl rfl k
  have el : dotK.lhsIdx (ix2 p q) ((contrEquiv1 dotK 4096 rfl rfl).symm k) = ix2 p k := funext fun a => Fin.ext (by
    match a with
    | ⟨0, _⟩ => exact lhs0 _ _
    | ⟨1, _⟩ => exact (lhs1 _ _).trans hk)
  have er : dotK.rhsIdx (ix2 p q) ((contrEquiv1 dotK 4096 rfl rfl).symm k) = ix2 q k := funext fun a => Fin.ext (by
    match a with
    | ⟨0, _⟩ => exact rhs0 _ _
    | ⟨1, _⟩ => exact (rhs1 _ _).trans hk)
  rw [el, er]

/-- The bias row of a half-block, broadcast down the rows, at `(p, q)`: the row's entry `q`. -/
theorem biasRows_apply (v3 : FVec Ideal S1x256 .f32) (p : Fin 1024) (q : Fin 256) :
    broadcastTo S1024x256 (shapeCast S1x256 v3 shapeCasts_S1x256_S1x256) broadcasts_S1x256_S1024x256 (ix2 p q)
      = v3 (ix2 (0 : Fin 1) q) := by
  rw [shapeCast_self]
  exact broadcastTo_1b_ab_apply v3 broadcasts_S1x256_S1024x256 p q

/-- The first store's payload at `(p, q)`. -/
theorem pay1_apply (v0 : Vec Ideal S1024x4096 .f32) (v1 : Vec Ideal S256x4096 .f32) (v3 : Vec Ideal S1x256 .f32) (p : Fin 1024) (q : Fin 256) :
    k0_pay1 (F := Ideal) v0 v1 v3 (ix2 p q) = (∑ k : Fin 4096, v0 (ix2 p k) * v1 (ix2 q k)) + v3 (ix2 (0 : Fin 1) q) := by
  unfold k0_pay1
  show matmul dotK none v0 v1 (constant (F := Ideal) S1024x256 .f32 0x00000000#32) (ix2 p q)
    + broadcastTo S1024x256 (shapeCast S1x256 v3 shapeCasts_S1x256_S1x256) broadcasts_S1x256_S1024x256 (ix2 p q) = _
  rw [band_apply, biasRows_apply]

/-- The second store's payload at `(p, q)`: the same of the second band and the second half of the bias row. -/
theorem pay2_apply (v0 : Vec Ideal S1024x4096 .f32) (v8 : Vec Ideal S256x4096 .f32) (v10 : Vec Ideal S1x256 .f32) (p : Fin 1024) (q : Fin 256) :
    k0_pay2 (F := Ideal) v0 v8 v10 (ix2 p q) = (∑ k : Fin 4096, v0 (ix2 p k) * v8 (ix2 q k)) + v10 (ix2 (0 : Fin 1) q) := by
  unfold k0_pay2
  show matmul dotK none v0 v8 (constant (F := Ideal) S1024x256 .f32 0x00000000#32) (ix2 p q)
    + broadcastTo S1024x256 (shapeCast S1x256 v10 shapeCasts_S1x256_S1x256) broadcasts_S1x256_S1024x256 (ix2 p q) = _
  rw [band_apply, biasRows_apply]

/-! ## The result block at an index -/

/-- A column of the block's left half is that column of the first half-block; -/
theorem left_emb (p : Fin 1024) (q : Fin 256) : (rO0.emb (ix2 p q) : S1024x512.Idx) = ix2 p ⟨q.val, by have := q.isLt; omega⟩ := by
  funext a; apply Fin.ext
  match a with
  | ⟨0, _⟩ => show 0 + 1 * p.val = p.val; omega
  | ⟨1, _⟩ => show 0 + 1 * q.val = q.val; omega

/-- a column of its right half is 256 past that column of the second. -/
theorem right_emb (p : Fin 1024) (q : Fin 256) : (rO1.emb (ix2 p q) : S1024x512.Idx) = ix2 p ⟨256 + q.val, by have := q.isLt; omega⟩ := by
  funext a; apply Fin.ext
  match a with
  | ⟨0, _⟩ => show 0 + 1 * p.val = p.val; omega
  | ⟨1, _⟩ => show 256 + 1 * q.val = 256 + q.val; omega

/-- THE RESULT BLOCK at row `p`, left column `q`: the first band's row `q` against `x`'s row `p`, plus the bias
    entry `q` of the block. -/
theorem outBlock_left (x0 : Vec Ideal S1024x4096 .f32) (x1 x2 : Vec Ideal S256x4096 .f32) (x3 : Vec Ideal S1x512 .f32) (p : Fin 1024) (q : Fin 256) :
    outBlock (F := Ideal) x0 x1 x2 x3 (ix2 p ⟨q.val, by have := q.isLt; omega⟩)
      = (∑ k : Fin 4096, x0 (ix2 p k) * x1 (ix2 q k)) + x3 (ix2 (0 : Fin 1) ⟨q.val, by have := q.isLt; omega⟩) := by
  unfold outBlock
  rw [View.canon_cons_of_not_mem _ _ (by
    rw [Rect.mem_set_unit]; intro h
    have h1 := (h 1).1
    have : (256 : Nat) ≤ q.val := h1
    have := q.isLt; omega)]
  rw [← left_emb, View.canon_cons_emb]
  refine (pay1_apply _ _ _ p q).trans ?_
  have hz : (![0, 0] : Fin 2 → Nat) = fun _ => 0 := funext fun a => by fin_cases a <;> rfl
  have e0 : ∀ k : Fin 4096, View.ld x0 rX (ix2 p k) = x0 (ix2 p k) := fun k => congrFun (View.ld_unit_zero (S := S1024x4096) hz _ x0) _
  have e1 : ∀ k : Fin 4096, View.ld x1 rW (ix2 q k) = x1 (ix2 q k) := fun k => congrFun (View.ld_unit_zero (S := S256x4096) hz _ x1) _
  have e3 : View.ld x3 rB0 (ix2 (0 : Fin 1) q) = x3 (ix2 (0 : Fin 1) ⟨q.val, by have := q.isLt; omega⟩) :=
    congrArg x3 (funext fun a => Fin.ext (by
      match a with
      | ⟨0, _⟩ => rfl
      | ⟨1, _⟩ => show 0 + 1 * q.val = q.val; omega))
  exact congrArg₂ (· + ·) (Finset.sum_congr rfl fun k _ => by rw [e0 k, e1 k]) e3

/-- THE RESULT BLOCK at row `p`, right column `256 + q`: the second band's row `q`, plus the bias entry
    `256 + q` of the block. -/
theorem outBlock_right (x0 : Vec Ideal S1024x4096 .f32) (x1 x2 : Vec Ideal S256x4096 .f32) (x3 : Vec Ideal S1x512 .f32) (p : Fin 1024) (q : Fin 256) :
    outBlock (F := Ideal) x0 x1 x2 x3 (ix2 p ⟨256 + q.val, by have := q.isLt; omega⟩)
      = (∑ k : Fin 4096, x0 (ix2 p k) * x2 (ix2 q k)) + x3 (ix2 (0 : Fin 1) ⟨256 + q.val, by have := q.isLt; omega⟩) := by
  unfold outBlock
  rw [← right_emb, View.canon_cons_emb]
  refine (pay2_apply _ _ _ p q).trans ?_
  have hz : (![0, 0] : Fin 2 → Nat) = fun _ => 0 := funext fun a => by fin_cases a <;> rfl
  have e0 : ∀ k : Fin 4096, View.ld x0 rX (ix2 p k) = x0 (ix2 p k) := fun k => congrFun (View.ld_unit_zero (S := S1024x4096) hz _ x0) _
  have e2 : ∀ k : Fin 4096, View.ld x2 rW (ix2 q k) = x2 (ix2 q k) := fun k => congrFun (View.ld_unit_zero (S := S256x4096) hz _ x2) _
  have e3 : View.ld x3 rB1 (ix2 (0 : Fin 1) q) = x3 (ix2 (0 : Fin 1) ⟨256 + q.val, by have := q.isLt; omega⟩) :=
    congrArg x3 (funext fun a => Fin.ext (by
      match a with
      | ⟨0, _⟩ => rfl
      | ⟨1, _⟩ => show 256 + 1 * q.val = 256 + q.val; omega))
  exact congrArg₂ (· + ·) (Finset.sum_congr rfl fun k _ => by rw [e0 k, e2 k]) e3

end Cert.KernelIdeal.HandValue

end
-- ==== Proof.Spec.lean ====
/-
  The specification: a linear layer over the extended reals.

  For `x` of 1024 rows by 4096 features, `w` of 4096 output features by 4096 input features and a bias `b` of 4096
  entries, the result has, at row `r` and output feature `n`,

      y r n = (∑ k, x r k · w n k) + b n,

  the sum, the products and the addition the extended reals'.  Nothing here needs the entries to be finite: both
  programs form exactly this sum of products, entry by entry, so no term is moved across a sum.
-/
import Idealize.ShloMosaic.PureOps.Ideal
import Idealize.ShloMosaic.Lib.ValueIdx

noncomputable section

namespace Cert.LinearSpec

open Idealize.ShloMosaic Idealize.ShloMosaic.ValueIdx

/-- `x · wᵀ + b`, entry by entry, with the bias given as the 4096 entries of a vector. -/
def affine (x : (⟨2, ![1024, 4096]⟩ : Shape).Idx → EReal) (w : (⟨2, ![4096, 4096]⟩ : Shape).Idx → EReal)
    (b : (⟨1, ![4096]⟩ : Shape).Idx → EReal) : (⟨2, ![1024, 4096]⟩ : Shape).Idx → EReal :=
  fun i => (∑ k : Fin 4096, x (ix2 (i 0) k) * w (ix2 (i 1) k)) + b (ix1 (i 1))

/-- The same with the bias given as a single row of 4096 entries. -/
def affineRow (x : (⟨2, ![1024, 4096]⟩ : Shape).Idx → EReal) (w : (⟨2, ![4096, 4096]⟩ : Shape).Idx → EReal)
    (b : (⟨2, ![1, 4096]⟩ : Shape).Idx → EReal) : (⟨2, ![1024, 4096]⟩ : Shape).Idx → EReal :=
  fun i => (∑ k : Fin 4096, x (ix2 (i 0) k) * w (ix2 (i 1) k)) + b (ix2 (0 : Fin 1) (i 1))

/-- A row that lists the vector's entries gives the same result. -/
theorem affineRow_eq_affine (x : (⟨2, ![1024, 4096]⟩ : Shape).Idx → EReal) (w : (⟨2, ![4096, 4096]⟩ : Shape).Idx → EReal)
    (brow : (⟨2, ![1, 4096]⟩ : Shape).Idx → EReal) (b : (⟨1, ![4096]⟩ : Shape).Idx → EReal)
    (h : ∀ n : Fin 4096, brow (ix2 (0 : Fin 1) n) = b (ix1 n)) : affineRow x w brow = affine x w b := by
  funext i
  exact congrArg (fun z => (∑ k : Fin 4096, x (ix2 (i 0) k) * w (ix2 (i 1) k)) + z) (h (i 1))

end Cert.LinearSpec

end
-- ==== Proof.KIValue.lean ====
/-
  From the blocks to the array: what the result array of `KernelIdeal` holds after the run, at the ideal instance.

  Grid point `t` (0 … 7) works on columns 512 t … 512 t + 511 of the result.  Its windows place a block's local index
  in their arrays as follows: `x`'s at itself; the first band's row `q` at row 512 t + q of `weight`, the second
  band's at row 512 t + 256 + q; the bias block's entry `q` at entry 512 t + q of the bias row; the result block's
  `(p, q)` at `(p, 512 t + q)`.  With the result block read at an index (left half / right half), what point `t` writes
  back is block `t` of ONE whole-array function, the linear layer of the arrays the region found; the eight blocks
  tile the result, so the array ends holding that function; and the bias row the region found is the launched bias
  reshaped, entry for entry.
-/
import proofs.«158400_g38525856645424_cont_8to1_b_480_24_alg».proof.Proof.KIRun
import proofs.«158400_g38525856645424_cont_8to1_b_480_24_alg».proof.Proof.KIPayload
import proofs.«158400_g38525856645424_cont_8to1_b_480_24_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The three arrays the region finds, as functions of their indices: `x`, `weight`, and the bias as a row. -/
abbrev fx (c : Dev nD) : S1024x4096.Idx → EReal := V m c main_arg0
abbrev fw (c : Dev nD) : S4096x4096.Idx → EReal := V m c main_arg1
abbrev fb (c : Dev nD) : S1x4096.Idx → EReal := V m c main_v0

/-- The linear layer of the arrays as the region finds them (the bias as its reshaped row). -/
abbrev found (c : Dev nD) : S1024x4096.Idx → EReal :=
  Cert.LinearSpec.affineRow (fx m c) (fw m c) (fb m c)

/-! ## The printed index maps, decided over the grid -/

theorem idx_facts : ∀ t : Fin cfg0.N, win0_0.index t (0 : Fin 2) = 0 ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem t_lt (t : Fin cfg0.N) : t.val < 8 := by
  have h : t.val < grid0.N := t.isLt
  rw [N_0] at h; exact h

/-! ## Where each window's block sits in its array -/

theorem emb0 (t : Fin cfg0.N) (p : Fin 1024) (k : Fin 4096) :
    ((cfg0.win 0).blk t).view.emb (ix2 p k) = (ix2 p k : S1024x4096.Idx) := by
  obtain ⟨e00, e01, -⟩ := idx_facts t
  funext a; apply Fin.ext
  match a with
  | ⟨0, _⟩ => show win0_0.index t (0 : Fin 2) * 1024 + 1 * p.val = p.val; omega
  | ⟨1, _⟩ => show win0_0.index t (1 : Fin 2) * 4096 + 1 * k.val = k.val; omega

theorem emb1 (t : Fin cfg0.N) (q : Fin 256) (k : Fin 4096) :
    ((cfg0.win 1).blk t).view.emb (ix2 q k) = (ix2 ⟨512 * t.val + q.val, by have := t_lt t; have := q.isLt; omega⟩ k : S4096x4096.Idx) := by
  obtain ⟨-, -, e10, e11, -⟩ := idx_facts t
  funext a; apply Fin.ext
  match a with
  | ⟨0, _⟩ => show win0_1.index t (0 : Fin 2) * 256 + 1 * q.val = 512 * t.val + q.val; omega
  | ⟨1, _⟩ => show win0_1.index t (1 : Fin 2) * 4096 + 1 * k.val = k.val; omega

theorem emb2 (t : Fin cfg0.N) (q : Fin 256) (k : Fin 4096) :
    ((cfg0.win 2).blk t).view.emb (ix2 q k) = (ix2 ⟨512 * t.val + (256 + q.val), by have := t_lt t; have := q.isLt; omega⟩ k : S4096x4096.Idx) := by
  obtain ⟨-, -, -, -, e20, e21, -⟩ := idx_facts t
  funext a; apply Fin.ext
  match a with
  | ⟨0, _⟩ => show win0_2.index t (0 : Fin 2) * 256 + 1 * q.val = 512 * t.val + (256 + q.val); omega
  | ⟨1, _⟩ => show win0_2.index t (1 : Fin 2) * 4096 + 1 * k.val = k.val; omega

theorem emb3 (t : Fin cfg0.N) (q : Fin 512) :
    ((cfg0.win 3).blk t).view.emb (ix2 (0 : Fin 1) q) = (ix2 (0 : Fin 1) ⟨512 * t.val + q.val, by have := t_lt t; have := q.isLt; omega⟩ : S1x4096.Idx) := by
  obtain ⟨-, -, -, -, -, -, e30, e31, -⟩ := idx_facts t
  funext a; apply Fin.ext
  match a with
  | ⟨0, _⟩ => show win0_3.index t (0 : Fin 2) * 1 + 1 * 0 = 0; omega
  | ⟨1, _⟩ => show win0_3.index t (1 : Fin 2) * 512 + 1 * q.val = 512 * t.val + q.val; omega

theorem emb4 (t : Fin cfg0.N) (p : Fin 1024) (q : Fin 512) :
    ((cfg0.win 4).blk t).view.emb (ix2 p q) = (ix2 p ⟨512 * t.val + q.val, by have := t_lt t; have := q.isLt; omega⟩ : S1024x4096.Idx) := by
  obtain ⟨-, -, -, -, -, -, -, -, e40, e41⟩ := idx_facts t
  funext a; apply Fin.ext
  match a with
  | ⟨0, _⟩ => show win0_4.index t (0 : Fin 2) * 1024 + 1 * p.val = p.val; omega
  | ⟨1, _⟩ => show win0_4.index t (1 : Fin 2) * 512 + 1 * q.val = 512 * t.val + q.val; omega

/-! ## What a point writes back -/

/-- The input blocks at an index, read off the arrays. -/
theorem blk0_apply (c : Dev nD) (t : Fin cfg0.N) (p : Fin 1024) (k : Fin 4096) :
    iblk m c 0 t (ix2 p k) = fx m c (ix2 p k) := by
  show V m c main_arg0 (((cfg0.win 0).blk t).view.emb (ix2 p k)) = _
  rw [emb0]
theorem blk1_apply (c : Dev nD) (t : Fin cfg0.N) (q : Fin 256) (k : Fin 4096) :
    iblk m c 1 t (ix2 q k) = fw m c (ix2 ⟨512 * t.val + q.val, by have := t_lt t; have := q.isLt; omega⟩ k) := by
  show V m c main_arg1 (((cfg0.win 1).blk t).view.emb (ix2 q k)) = _
  rw [emb1]
theorem blk2_apply (c : Dev nD) (t : Fin cfg0.N) (q : Fin 256) (k : Fin 4096) :
    iblk m c 2 t (ix2 q k) = fw m c (ix2 ⟨512 * t.val + (256 + q.val), by have := t_lt t; have := q.isLt; omega⟩ k) := by
  show V m c main_arg1 (((cfg0.win 2).blk t).view.emb (ix2 q k)) = _
  rw [emb2]
theorem blk3_apply (c : Dev nD) (t : Fin cfg0.N) (q : Fin 512) :
    iblk m c 3 t (ix2 (0 : Fin 1) q) = fb m c (ix2 (0 : Fin 1) ⟨512 * t.val + q.val, by have := t_lt t; have := q.isLt; omega⟩) := by
  show V m c main_v0 (((cfg0.win 3).blk t).view.emb (ix2 (0 : Fin 1) q)) = _
  rw [emb3]

/-- The linear layer of the found arrays at a result block's index. -/
theorem found_at (c : Dev nD) (t : Fin cfg0.N) (p : Fin 1024) (q : Fin 512) :
    found m c (((cfg0.win 4).blk t).view.emb (ix2 p q))
      = (∑ k : Fin 4096, fx m c (ix2 p k) * fw m c (ix2 ⟨512 * t.val + q.val, by have := t_lt t; have := q.isLt; omega⟩ k))
        + fb m c (ix2 (0 : Fin 1) ⟨512 * t.val + q.val, by have := t_lt t; have := q.isLt; omega⟩) := by
  rw [emb4]; rfl

/-- WHAT POINT `t` WRITES BACK is block `t` of the linear layer of the found arrays. -/
theorem flushed_eq (c : Dev nD) (t : Fin cfg0.N) :
    (dats m 0 c).flushed 4 t = ((cfg0.win 4).blk t).view.read (Elt Ideal) (found m c) := by
  show (cfg0.win 4).cut (grid0.coords t) ((dats m 0 c).after 4 t) = _
  rw [after4]
  funext y
  obtain ⟨p, q, rfl⟩ : ∃ (p : Fin 1024) (q : Fin 512), y = ix2 p q := ⟨y 0, y 1, eq_ix2 y⟩
  show outBlock (iblk m c 0 t) (iblk m c 1 t) (iblk m c 2 t) (iblk m c 3 t) (ix2 p q)
    = found m c (((cfg0.win 4).blk t).view.emb (ix2 p q))
  rw [found_at]
  by_cases hq : q.val < 256
  · refine (outBlock_left (iblk m c 0 t) (iblk m c 1 t) (iblk m c 2 t) (iblk m c 3 t) p ⟨q.val, hq⟩).trans ?_
    exact congrArg₂ (· + ·) (Finset.sum_congr rfl fun k _ =>
      congrArg₂ (· * ·) (blk0_apply m c t p k) (blk1_apply m c t ⟨q.val, hq⟩ k)) (blk3_apply m c t q)
  · have hq' : q.val - 256 < 256 := by have := q.isLt; omega
    have eq : q = ⟨256 + (⟨q.val - 256, hq'⟩ : Fin 256).val, by have := q.isLt; omega⟩ := Fin.ext (by show q.val = 256 + (q.val - 256); omega)
    have key := outBlock_right (iblk m c 0 t) (iblk m c 1 t) (iblk m c 2 t) (iblk m c 3 t) p ⟨q.val - 256, hq'⟩
    rw [← eq] at key
    refine key.trans ?_
    have ht := t_lt t
    have hqlt := q.isLt
    have ez : (⟨512 * t.val + (256 + (q.val - 256)), by omega⟩ : Fin 4096) = ⟨512 * t.val + q.val, by omega⟩ :=
      Fin.ext (by show 512 * t.val + (256 + (q.val - 256)) = 512 * t.val + q.val; omega)
    exact congrArg₂ (· + ·) (Finset.sum_congr rfl fun k _ =>
      congrArg₂ (· * ·) (blk0_apply m c t p k)
        ((blk2_apply m c t ⟨q.val - 256, hq'⟩ k).trans (congrArg (fun z : Fin 4096 => fw m c (ix2 z k)) ez))) (blk3_apply m c t q)

/-! ## The blocks tile the result -/

theorem mem_blk (t : Fin cfg0.N) (i : S1024x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

/-- Column `n` of the result is in the block of point `n / 512`. -/
theorem cover (i : S1024x4096.Idx) : ∃ t : Fin cfg0.N, (cfg0.win 4).flush t = true ∧ i ∈ ((cfg0.win 4).blk t).view.set := by
  have hi0 : (i 0).val < 1024 := (i 0).isLt
  have hi1 : (i 1).val < 4096 := (i 1).isLt
  have hN := N_0
  refine ⟨⟨(i 1).val / 512, by show (i 1).val / 512 < grid0.N; omega⟩, flush0_4 _, ?_⟩
  rw [mem_blk]
  obtain ⟨-, -, -, -, -, -, -, -, e40, e41⟩ := idx_facts ⟨(i 1).val / 512, by show (i 1).val / 512 < grid0.N; omega⟩
  intro a
  match a with
  | ⟨0, _⟩ =>
    show win0_4.index _ (0 : Fin 2) * 1024 ≤ (i 0).val ∧ (i 0).val < win0_4.index _ (0 : Fin 2) * 1024 + 1024
    rw [e40]; omega
  | ⟨1, _⟩ =>
    show win0_4.index _ (1 : Fin 2) * 512 ≤ (i 1).val ∧ (i 1).val < win0_4.index _ (1 : Fin 2) * 512 + 512
    rw [e41]; show (i 1).val / 512 * 512 ≤ (i 1).val ∧ (i 1).val < (i 1).val / 512 * 512 + 512; omega

/-- THE RESULT ARRAY after the run: the linear layer of the found arrays. -/
theorem final (c : Dev nD) : (dats m 0 c).arrAt 4 cfg0.N = found m c :=
  (dats m 0 c).arrAt_eq_of_cover 4 (found m c) (fun t _ => flushed_eq m c t) cover

/-! ## The found arrays are the launched ones -/

/-- The bias row the region finds is the launched bias, reshaped. -/
theorem V_row (c : Dev nD) : fb m c
    = shapeCast S1x4096 (m ((c : Thread nD τ).loc main_arg2)) shapeCasts_S4096_S1x4096 := by
  show (V m c main_v0 : S1x4096.Idx → EReal) = _
  unfold V
  dsimp only [hostOps0]; after_results; rfl

/-- The linear layer of the found arrays is that of the launched arguments. -/
theorem found_eq (c : Dev nD) : found m c
    = Cert.LinearSpec.affine (m ((c : Thread nD τ).loc main_arg0)) (m ((c : Thread nD τ).loc main_arg1)) (m ((c : Thread nD τ).loc main_arg2)) := by
  have e0 : fx m c = m ((c : Thread nD τ).loc main_arg0) := V_main_arg0 m c
  have e1 : fw m c = m ((c : Thread nD τ).loc main_arg1) := V_main_arg1 m c
  show Cert.LinearSpec.affineRow (fx m c) (fw m c) (fb m c) = _
  rw [e0, e1]
  refine Cert.LinearSpec.affineRow_eq_affine _ _ _ _ fun n => ?_
  rw [V_row]
  exact shapeCast_a_1a_apply _ shapeCasts_S4096_S1x4096 (0 : Fin 1) n

/-! ## The run, read -/

/-- Every weakly fair execution of `KernelIdeal` ends with the result array at the linear layer of the launched
    arguments, and the arguments unchanged. -/
theorem run : θ_run defs (onTc (τ := τ) (main (F := Ideal))) ⟨m, fun _ => 0, ρ⟩ fun r => ∀ c : Dev nD,
      r.2.mem ((c.tc : Thread nD τ).loc main_v1)
        = Cert.LinearSpec.affine (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans ((final m c).trans (found_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 arg2_bypasses).trans (V_main_arg2 m c)⟩) (run_main m ρ)

end Cert.KernelIdeal.HandValue

end
-- ==== Proof.RefLinear.lean ====
/-
  The reference is the specification, at the ideal instance.

  The reference transposes `weight`, contracts `x`'s features against the transposed array's first axis, and adds the
  bias broadcast to a row and then down the rows.  Read at row `r` and output feature `n`: the transposed array at
  `(k, n)` is `weight` at `(n, k)`, so the contraction is `∑ k, x r k · weight n k`; the twice-broadcast bias at
  `(r, n)` is the bias at `n`.  That is the linear layer, entry by entry.
-/
import proofs.«158400_g38525856645424_cont_8to1_b_480_24_alg».proof.Proof.Gen.ReferenceIdeal.Read
import proofs.«158400_g38525856645424_cont_8to1_b_480_24_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

theorem result_eq (x0 : (⟨S1024x4096, .f32⟩ : BufTy).Contents (Elt Ideal)) (x1 : (⟨S4096x4096, .f32⟩ : BufTy).Contents (Elt Ideal))
    (x2 : (⟨S4096, .f32⟩ : BufTy).Contents (Elt Ideal)) :
    val_main_v4 (F := Ideal) x0 x1 x2 = Cert.LinearSpec.affine x0 x1 x2 := by
  funext i
  rw [val_main_v4_apply, val_main_v1_apply, val_main_v3_apply, val_main_v2_apply]
  simp only [val_main_v0_apply]
  have el : ∀ k : Fin 4096, lidx_main_v1 i k = ix2 (i 0) k := fun k => funext fun a => Fin.ext (by
    match a with
    | ⟨0, _⟩ => rfl
    | ⟨1, _⟩ => rfl)
  have er : ∀ k : Fin 4096, idx_main_v0 (ridx_main_v1 i k) = ix2 (i 1) k := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  show (∑ k : Fin 4096, x0 (lidx_main_v1 i k) * x1 (idx_main_v0 (ridx_main_v1 i k))) + x2 (idx_main_v2 (idx_main_v3 i))
    = (∑ k : Fin 4096, x0 (ix2 (i 0) k) * x1 (ix2 (i 1) k)) + x2 (ix1 (i 1))
  exact congrArg₂ (· + ·) (Finset.sum_congr rfl fun k _ => congrArg₂ (· * ·) (congrArg x0 (el k)) (congrArg x1 (er k))) (congrArg x2 eb)

end Cert.ReferenceIdeal.RefValue

end
-- ==== Proof.lean ====
/-
  `Cert.Claim` for a linear layer computed block by block against `x · weightᵀ + bias`.

  The kernel produces the 1024 × 4096 result in eight column blocks of 512.  For block `j` it multiplies all of `x`
  with two consecutive 256-row bands of `weight` (rows 512 j … 512 j + 511 in all), adds the matching 512 bias
  entries, and stores the two 1024 × 256 products side by side.  Entry `(r, n)` of the result is therefore
  `(∑ k, x r k · weight n k) + bias n`, which is entry `(r, n)` of the reference's `x · weightᵀ + bias`: the same sum
  of the same products, so the two agree on all extended reals and the precondition is not used by the value claim.

  * The three frames.  `weight` is read through two windows of the pallas_call; its buffer is dealt to them in two
    halves of the full share, and the run is the frame run for windows sharing an array (Proof/LibSharedFrame.lean,
    Proof/KIBody.lean, Proof/KIRun.lean; Proof/KBody.lean and Proof/KRun.lean are the same for the word-level
    program).  The reference's frame is its run with the result dropped.
  * `preserves`: the ideal pass rewrote nothing, the statement is `True`.
  * `algebraic`: the kernel's result array is the linear layer of the launched arguments (Proof/KIPayload.lean,
    Proof/KIValue.lean), and so is the reference's (Proof/RefLinear.lean); both are `Cert.LinearSpec.affine`
    (Proof/Spec.lean).
-/
import proofs.«158400_g38525856645424_cont_8to1_b_480_24_alg».proof.Defs
import proofs.«158400_g38525856645424_cont_8to1_b_480_24_alg».proof.Proof.Gen.Kernel
import proofs.«158400_g38525856645424_cont_8to1_b_480_24_alg».proof.Proof.Gen.Kernel.Skeleton
import proofs.«158400_g38525856645424_cont_8to1_b_480_24_alg».proof.Proof.Gen.Kernel.Launch
import proofs.«158400_g38525856645424_cont_8to1_b_480_24_alg».proof.Proof.Gen.Kernel.Points
import proofs.«158400_g38525856645424_cont_8to1_b_480_24_alg».proof.Proof.Gen.KernelIdeal
import proofs.«158400_g38525856645424_cont_8to1_b_480_24_alg».proof.Proof.Gen.KernelIdeal.Skeleton
import proofs.«158400_g38525856645424_cont_8to1_b_480_24_alg».proof.Proof.Gen.KernelIdeal.Launch
import proofs.«158400_g38525856645424_cont_8to1_b_480_24_alg».proof.Proof.Gen.KernelIdeal.Points
import proofs.«158400_g38525856645424_cont_8to1_b_480_24_alg».proof.Proof.Gen.ReferenceIdeal
import proofs.«158400_g38525856645424_cont_8to1_b_480_24_alg».proof.Proof.Gen.Pre_finite_inputs
import proofs.«158400_g38525856645424_cont_8to1_b_480_24_alg».proof.Proof.Gen.ReferenceIdeal.Run
import proofs.«158400_g38525856645424_cont_8to1_b_480_24_alg».proof.Proof.Gen.ReferenceIdeal.Read
import proofs.«158400_g38525856645424_cont_8to1_b_480_24_alg».proof.Proof.KRun
import proofs.«158400_g38525856645424_cont_8to1_b_480_24_alg».proof.Proof.KIValue
import proofs.«158400_g38525856645424_cont_8to1_b_480_24_alg».proof.Proof.RefLinear
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the linear layer of the (agreeing) arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
